-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S16x128 : Shape := ⟨2, ![16, 128]⟩
abbrev S16 : Shape := ⟨1, ![16]⟩
abbrev S40x16 : Shape := ⟨2, ![40, 16]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S40x16 : S_.BroadcastsInDim S40x16 (![] : Fin 0 → Fin S40x16.rank)
  reducesTo_S40x16_S_d0_1 : S40x16.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S40x16 1) : IVec S_ 1 :=
  let main_c_5 : IVec S_ 1 := constantI S_ 1 1#1
  let main_v17 : IVec S_ 1 := (fun x v => Host.reduce IntOp.andi x v reducesTo_S40x16_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S16x128 .f32) (main_arg3 : FVec F S16 .f32) (main_arg4 : FVec F S40x16 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S40x16 .f32 := Host.absf main_arg4
  let main_cst_4 : FVec F S_ .f32 := constant S_ .f32 0x7F800000#32
  let main_v15 : FVec F S40x16 .f32 := broadcastInDim S40x16 ![] bcast_S_S40x16 main_cst_4
  let main_v16 : IVec S40x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S16x128 : Shape := ⟨2, ![16, 128]⟩
abbrev S16 : Shape := ⟨1, ![16]⟩
abbrev S40x16 : Shape := ⟨2, ![40, 16]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S10000x128 : Shape := ⟨2, ![10000, 128]⟩
abbrev S10000x16 : Shape := ⟨2, ![10000, 16]⟩
abbrev S128x16 : Shape := ⟨2, ![128, 16]⟩
abbrev S1700000x16 : Shape := ⟨2, ![1700000, 16]⟩
abbrev S1x16 : Shape := ⟨2, ![1, 16]⟩
abbrev S1x40 : Shape := ⟨2, ![1, 40]⟩
abbrev S100000x40 : Shape := ⟨2, ![100000, 40]⟩
abbrev S10000x40 : Shape := ⟨2, ![10000, 40]⟩
abbrev S16x40 : Shape := ⟨2, ![16, 40]⟩

abbrev nBuf : Space → Nat
  | .hbm => 85
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S16x128, .f32⟩
  | .hbm, ⟨3, _⟩ => ⟨S16, .f32⟩
  | .hbm, ⟨4, _⟩ => ⟨S40x16, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x16, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x16, .f32⟩
  | .hbm, ⟨60, _⟩ => ⟨S1700000x16, .f32⟩
  | .hbm, ⟨61, _⟩ => ⟨S1700000x16, .f32⟩
  | .hbm, ⟨62, _⟩ => ⟨S_, .f32⟩
  | .hbm, ⟨63, _⟩ => ⟨S100000x16, .f32⟩
  | .hbm, ⟨64, _⟩ => ⟨S1700000x1, .i32⟩
  | .hbm, ⟨65, _⟩ => ⟨S100000x16, .f32⟩
  | .hbm, ⟨66, _⟩ => ⟨S1700000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x16, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S1x40, .f32⟩
  | .hbm, ⟨84, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S16x128, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S40x16, .f32⟩
  | .local _ .vmem, ⟨9, _⟩ => ⟨S1x40, .f32⟩
  | .local _ .vmem, ⟨10, _⟩ => ⟨S10000x40, .f32⟩
  | .local _ .vmem, ⟨11, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S40_S1x40 : S40.ShapeCasts S1x40
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S40x16_S40x16_0_0 : ∀ a, (![0, 0] : Fin 2 → Nat) a + S40x16.size a ≤ S40x16.size a
  h_S40x16 : 0 < S40x16.numel
  transposes_S40x16_p1_0_S16x40 : S40x16.Transposes [1, 0] S16x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x16_S10000x16_1_0_0_1_n_n_wf : DotDims.WF S10000x128 S128x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x40_S10000x40_1_0_0_1_n_n_wf : DotDims.WF S10000x16 S16x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x16.size a ≤ S40x16.size a
  hwx1_2 : ∀ i : grid1.Coords, EltTy.bits .f32 = 32 ∨ (Rect.block (s := S40x16) S40x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x40.size a ≤ S100000x40.size a
  hwx1_4 : ∀ i : grid1.Coords, EltTy.bits .f32 = 32 ∨ (Rect.block (s := S100000x40) S10000x40.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S40x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S10000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S16x128 : Shape := ⟨2, ![16, 128]⟩
abbrev S16 : Shape := ⟨1, ![16]⟩
abbrev S40x16 : Shape := ⟨2, ![40, 16]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S128x16 : Shape := ⟨2, ![128, 16]⟩
abbrev S100000x16 : Shape := ⟨2, ![100000, 16]⟩
abbrev S1x16 : Shape := ⟨2, ![1, 16]⟩
abbrev S16x40 : Shape := ⟨2, ![16, 40]⟩
abbrev S100000x40 : Shape := ⟨2, ![100000, 40]⟩
abbrev S1x40 : Shape := ⟨2, ![1, 40]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S16x128, .f32⟩
  | .hbm, ⟨3, _⟩ => ⟨S16, .f32⟩
  | .hbm, ⟨4, _⟩ => ⟨S40x16, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S128x16, .f32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | .hbm, ⟨86, _⟩ => ⟨S_, .f32⟩
  | .hbm, ⟨87, _⟩ => ⟨S100000x16, .f32⟩
  | .hbm, ⟨88, _⟩ => ⟨S100000x16, .f32⟩
  | .hbm, ⟨89, _⟩ => ⟨S16x40, .f32⟩
  | .hbm, ⟨90, _⟩ => ⟨S100000x40, .f32⟩
  | .hbm, ⟨91, _⟩ => ⟨S1x40, .f32⟩
  | .hbm, ⟨92, _⟩ => ⟨S100000x40, .f32⟩
  | .hbm, ⟨93, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S40x16_S16x40_1_0 : S40x16.Transposes [1, 0] S16x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  dot_S100000x16_S16x40_S100000x40_1_0_0_1_n_n_wf : DotDims.WF S100000x16 S16x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.GraphTerms.lean ====
/-
  The graph normalisation shared by the two programs, as named functions of the edge-index argument.

  Both programs first build, from the edge list `edge_index : i32[2, 1600000]` and the 100000 self-loops, the
  source column `rowIdx` and the target column `colIdx` (each of length 1700000), the degree of every node
  (`deg`: a scatter-add of ones along `colIdx`), its inverse square root where the degree is positive (`dinv`),
  and the symmetric edge weight `norm e = dinv[row e] * 1 * dinv[col e]`. A propagation step ("hop") gathers the
  rows of a feature matrix at the wrapped source indices, scales row `e` by `norm e` and scatter-adds it into the
  row named by `colIdx e`. The reference hops twice on the 128 input channels and then contracts with `W_conv`;
  the kernel contracts first and hops twice on the 16 projected channels. The terms below are spelt exactly as
  the printed programs spell them, so that each program's run meets them by unfolding.
-/
import proofs.«102031_j84954453114998_1_alg».proof.Proof.Gen.ReferenceIdeal
import proofs.«102031_j84954453114998_1_alg».proof.Proof.Gen.KernelIdeal
import Idealize.ShloMosaic.PureOps.Ideal

noncomputable section

namespace Cert.Graph

open Idealize.ShloMosaic Idealize.ShloMosaic.TcCoe

variable {F : FTy → Type} [FloatOps F]

section Ref
open Cert.ReferenceIdeal Cert.ReferenceIdeal.Facts₀

/-- The source node of every edge, then the self-loops `0 … 99999`. -/
def rowIdx (a1 : IVec S2x1600000 32) : IVec S1700000 32 :=
  concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0

/-- The target node of every edge, then the self-loops. -/
def colIdx (a1 : IVec S2x1600000 32) : IVec S1700000 32 :=
  concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0

/-- jax's index normalisation: a negative index counts from the end. -/
def wrapIdx (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- An index vector as the `[1700000, 1]` column the gather and the scatter take. -/
def asCol (v : IVec S1700000 32) : IVec S1700000x1 32 :=
  broadcastInDim S1700000x1 ![0] bcast_S1700000_S1700000x1_0 v

/-- The edge weights before normalisation: all ones. -/
def ones : FVec F S1700000 .f32 :=
  broadcastInDim S1700000 ![] bcast_S_S1700000 (constant S_ .f32 0x3F800000#32)

/-- The degree of every node: the ones scatter-added along the target column. -/
def deg (a1 : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (colIdx a1)) (broadcastInDim S1700000 ![] bcast_S_S1700000 (constant S_ .f32 0x3F800000#32))

/-- `deg ^ (-1/2)` where the degree is positive, zero elsewhere. -/
def dinv (a1 : IVec S2x1600000 32) : FVec F S100000 .f32 :=
  select (cmpf (F := F) .ogt (deg (F := F) a1) (broadcastInDim S100000 ![] bcast_S_S100000 (constant S_ .f32 0x00000000#32))) (Host.powf (deg (F := F) a1) (broadcastInDim S100000 ![] bcast_S_S100000 (constant S_ .f32 0xBF000000#32))) (broadcastInDim S100000 ![] bcast_S_S100000 (id (constant S_ .f32 0x00000000#32)))

/-- The symmetric edge weight `dinv[row] * 1 * dinv[col]`. -/
def norm (a1 : IVec S2x1600000 32) : FVec F S1700000 .f32 :=
  mulf (mulf (Host.gather gather_S100000_S1700000x1_S1700000_n_0_n_n_0_1_1 (dinv (F := F) a1) (broadcastInDim S1700000x1 ![0] bcast_S1700000_S1700000x1_0 (wrapIdx (rowIdx a1)))) (broadcastInDim S1700000 ![] bcast_S_S1700000 (constant S_ .f32 0x3F800000#32))) (Host.gather gather_S100000_S1700000x1_S1700000_n_0_n_n_0_1_1 (dinv (F := F) a1) (broadcastInDim S1700000x1 ![0] bcast_S1700000_S1700000x1_0 (wrapIdx (colIdx a1))))

/-- One hop on 128 channels: gather the source rows, scale by the edge weight, scatter-add into the target rows. -/
def hop128 (nrm : FVec F S1700000 .f32) (src tgt : IVec S1700000x1 32) (h : FVec F S100000x128 .f32) : FVec F S100000x128 .f32 :=
  Host.scatterAdd scatter_S100000x128_S1700000x1_S1700000x128_1_0_0_1 (broadcastInDim S100000x128 ![] bcast_S_S100000x128 (constant S_ .f32 0x00000000#32)) tgt (mulf (broadcastInDim S1700000x128 ![0, 1] bcast_S1700000x1_S1700000x128_0_1 (broadcastInDim S1700000x1 ![0] bcast_S1700000_S1700000x1_0 nrm)) (Host.gather gather_S100000x128_S1700000x1_S1700000x128_1_0_n_n_0_1_1128 h src))

/-- The reference after its two hops: bias, ReLU, the second linear layer and its bias, on the 16 hidden channels. -/
def refTail (y : FVec F S100000x16 .f32) (a3 : FVec F S16 .f32) (a4 : FVec F S40x16 .f32) (a5 : FVec F S40 .f32) : FVec F S100000x40 .f32 :=
  addf (Host.dotGeneral dot_S100000x16_S16x40_S100000x40_1_0_0_1_n_n none (maximumf (addf y (broadcastInDim S100000x16 ![0, 1] bcast_S1x16_S100000x16_0_1 (broadcastInDim S1x16 ![1] bcast_S16_S1x16_1 a3))) (broadcastInDim S100000x16 ![] bcast_S_S100000x16 (constant S_ .f32 0x00000000#32))) (transpose S16x40 [1, 0] a4 transposes_S40x16_S16x40_1_0)) (broadcastInDim S100000x40 ![0, 1] bcast_S1x40_S100000x40_0_1 (broadcastInDim S1x40 ![1] bcast_S40_S1x40_1 a5))

/-- The reference's projection of the propagated features onto the hidden channels: `h @ W_conv.T`. -/
def refProj (h : FVec F S100000x128 .f32) (a2 : FVec F S16x128 .f32) : FVec F S100000x16 .f32 :=
  Host.dotGeneral dot_S100000x128_S128x16_S100000x16_1_0_0_1_n_n none h (transpose S128x16 [1, 0] a2 transposes_S16x128_S128x16_1_0)

/-- The whole reference as one function of its arguments. -/
def refOut (a0 : FVec F S100000x128 .f32) (a1 : IVec S2x1600000 32) (a2 : FVec F S16x128 .f32) (a3 : FVec F S16 .f32) (a4 : FVec F S40x16 .f32) (a5 : FVec F S40 .f32) : FVec F S100000x40 .f32 :=
  refTail (refProj (hop128 (norm (F := F) a1) (asCol (wrapIdx (rowIdx a1))) (asCol (colIdx a1)) (hop128 (norm (F := F) a1) (asCol (wrapIdx (rowIdx a1))) (asCol (colIdx a1)) a0)) a2) a3 a4 a5

end Ref

section Ker
open Cert.KernelIdeal Cert.KernelIdeal.Facts₀

/-- One hop on the 16 projected channels (the kernel's program). -/
def hop16 (nrm : FVec F S1700000 .f32) (src tgt : IVec S1700000x1 32) (h : FVec F S100000x16 .f32) : FVec F S100000x16 .f32 :=
  Host.scatterAdd scatter_S100000x16_S1700000x1_S1700000x16_1_0_0_1 (broadcastInDim S100000x16 ![] bcast_S_S100000x16 (constant S_ .f32 0x00000000#32)) tgt (mulf (broadcastInDim S1700000x16 ![0, 1] bcast_S1700000x1_S1700000x16_0_1 (broadcastInDim S1700000x1 ![0] bcast_S1700000_S1700000x1_0 nrm)) (Host.gather gather_S100000x16_S1700000x1_S1700000x16_1_0_n_n_0_1_116 h src))

end Ker

end Cert.Graph

end
-- ==== Proof.RefValue.lean ====
/-
  The reference's result as the named function of its arguments: the composed term that the reference's run ends at
  is, spelt out, two hops of the input features along the normalised graph, the projection onto the hidden channels,
  and the tail (bias, ReLU, second linear layer, bias). Nothing is computed here: both sides unfold to one term.
-/
import proofs.«102031_j84954453114998_1_alg».proof.Proof.RefRun
import proofs.«102031_j84954453114998_1_alg».proof.Proof.GraphTerms

noncomputable section

namespace Cert.ReferenceIdeal.RefValue

open Cert.ReferenceIdeal Idealize.ShloMosaic Idealize.ShloMosaic.TcCoe Idealize.SL.Sem

variable {F : FTy → Type} [FloatOps F]

set_option maxRecDepth 16384 in
/-- The run's result term is `Graph.refOut` of the six argument arrays. -/
theorem res_eq (m : (ℓ : Loc nD τ sig) → Buf (Elt F) ℓ) (c : Dev nD) :
    Cert.ReferenceIdeal.ValueP.res_main_v68 (F := F) m c
      = Cert.Graph.refOut (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

end Cert.ReferenceIdeal.RefValue

end
-- ==== Proof.KernelRun.lean ====
/-
  The kernel program's run with its RESULT named: every weakly fair execution of @main terminates with the result
  buffer at the contents the last segment boundary gives it, the arguments unchanged. @main is a list of segments — three
  stretches of host operations, the projection region, a fourth stretch (the two hops), the finishing region —; the launch
  over the segments ends with every unscoped buffer at the last boundary's contents, and the result buffer is one of them.
-/
import proofs.«102031_j84954453114998_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read at the result buffer and at the six arguments. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Hand

end
-- ==== Proof.KernelHost.lean ====
/-
  What the kernel program's host stretches leave in the buffers the two regions read: the graph terms of
  GraphTerms.lean at the edge-index argument (the three stretches before the projection region compute the source
  and target columns and the edge weights), and, in the stretch between the regions, two hops on the 16 projected
  channels of whatever the projection region left, with the two biases reshaped to rows.
-/
import proofs.«102031_j84954453114998_1_alg».proof.Proof.Gen.KernelIdeal.Frame
import proofs.«102031_j84954453114998_1_alg».proof.Proof.GraphTerms
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the projection region -/

/-- The source column. -/
theorem W3_v3 (c : Dev nD) : W3 m ρ c (Proc.devRef .tc main_v3) = Cert.Graph.rowIdx (m ((c : Thread nD τ).loc main_arg1)) := by
  dsimp only [W3, W2, W1, W0]
  after_results
  rfl

/-- The target column. -/
theorem W3_v6 (c : Dev nD) : W3 m ρ c (Proc.devRef .tc main_v6) = Cert.Graph.colIdx (m ((c : Thread nD τ).loc main_arg1)) := by
  dsimp only [W3, W2, W1, W0]
  after_results
  rfl

set_option maxHeartbeats 4000000 in
/-- The edge weights. -/
theorem W3_v31 (c : Dev nD) : W3 m ρ c (Proc.devRef .tc main_v31) = Cert.Graph.norm (F := F) (m ((c : Thread nD τ).loc main_arg1)) := by
  dsimp only [W3, W2, W1, W0]
  after_results_simp
  rfl

/-- No host operation before the region writes an argument. -/
theorem W3_arg0 (c : Dev nD) : W3 m ρ c (Proc.devRef .tc main_arg0) = m ((c : Thread nD τ).loc main_arg0) := by
  dsimp only [W3, W2, W1, W0]
  after_results
theorem W3_arg2 (c : Dev nD) : W3 m ρ c (Proc.devRef .tc main_arg2) = m ((c : Thread nD τ).loc main_arg2) := by
  dsimp only [W3, W2, W1, W0]
  after_results
theorem W3_arg3 (c : Dev nD) : W3 m ρ c (Proc.devRef .tc main_arg3) = m ((c : Thread nD τ).loc main_arg3) := by
  dsimp only [W3, W2, W1, W0]
  after_results
theorem W3_arg4 (c : Dev nD) : W3 m ρ c (Proc.devRef .tc main_arg4) = m ((c : Thread nD τ).loc main_arg4) := by
  dsimp only [W3, W2, W1, W0]
  after_results
theorem W3_arg5 (c : Dev nD) : W3 m ρ c (Proc.devRef .tc main_arg5) = m ((c : Thread nD τ).loc main_arg5) := by
  dsimp only [W3, W2, W1, W0]
  after_results

/-! ## Between the regions -/

set_option maxHeartbeats 4000000 in
/-- The finishing region's first operand: two hops of the projection region's result. -/
theorem W5_v58 (c : Dev nD) : W5 m ρ c (Proc.devRef .tc main_v58)
    = Cert.Graph.hop16 (F := F) (W4 m ρ c (Proc.devRef .tc main_v31))
        (Cert.Graph.asCol (Cert.Graph.wrapIdx (W4 m ρ c (Proc.devRef .tc main_v3)))) (Cert.Graph.asCol (W4 m ρ c (Proc.devRef .tc main_v6)))
        (Cert.Graph.hop16 (F := F) (W4 m ρ c (Proc.devRef .tc main_v31))
          (Cert.Graph.asCol (Cert.Graph.wrapIdx (W4 m ρ c (Proc.devRef .tc main_v3)))) (Cert.Graph.asCol (W4 m ρ c (Proc.devRef .tc main_v6)))
          (W4 m ρ c (Proc.devRef .tc main_v32))) := by
  dsimp only [W5]
  after_results_simp
  rfl

/-- The first bias as a row. -/
theorem W5_v59 (c : Dev nD) : W5 m ρ c (Proc.devRef .tc main_v59)
    = shapeCast S1x16 (W4 m ρ c (Proc.devRef .tc main_arg3)) Facts₀.shapeCasts_S16_S1x16 := by
  dsimp only [W5]
  after_results
  rfl

/-- The second bias as a row. -/
theorem W5_v60 (c : Dev nD) : W5 m ρ c (Proc.devRef .tc main_v60)
    = shapeCast S1x40 (W4 m ρ c (Proc.devRef .tc main_arg5)) Facts₀.shapeCasts_S40_S1x40 := by
  dsimp only [W5]
  after_results
  rfl

/-- The second layer's weights are not written between the regions. -/
theorem W5_arg4 (c : Dev nD) : W5 m ρ c (Proc.devRef .tc main_arg4) = W4 m ρ c (Proc.devRef .tc main_arg4) := by
  dsimp only [W5]
  after_results

/-! ## Across the projection region: it writes its result array only -/

theorem W4_v31 (c : Dev nD) : W4 m ρ c (Proc.devRef .tc main_v31) = Cert.Graph.norm (F := F) (m ((c : Thread nD τ).loc main_arg1)) :=
  (W4_of_ne m ρ c main_v31 (by decide)).trans (W3_v31 m ρ c)
theorem W4_v3 (c : Dev nD) : W4 m ρ c (Proc.devRef .tc main_v3) = Cert.Graph.rowIdx (m ((c : Thread nD τ).loc main_arg1)) :=
  (W4_of_ne m ρ c main_v3 (by decide)).trans (W3_v3 m ρ c)
theorem W4_v6 (c : Dev nD) : W4 m ρ c (Proc.devRef .tc main_v6) = Cert.Graph.colIdx (m ((c : Thread nD τ).loc main_arg1)) :=
  (W4_of_ne m ρ c main_v6 (by decide)).trans (W3_v6 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

end Cert.KernelIdeal.Hand

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  The first region's closed form, at the ideal values.

  The region is a pipelined projection: at grid point `t` (ten points) it multiplies block `t` of `x : [100000, 128]` —
  rows `10000·t … 10000·t + 9999` — by the transposed weights `W : [16, 128]` and writes the `[10000, 16]` product
  back to block `t` of the result. At the ideal values the narrowing format changes are the identity, the transpose
  reads `W(j, k)` at `(k, j)` and the matrix product into the zero accumulator is the plain sum, so one element of
  a block is `∑ k, x(10000·t + p, k) · W(q, k)`. The ten blocks tile the result (row `r` lies in block `r / 10000`), hence
  after the region the result array is `(n, j) ↦ ∑ k, x(n, k) · W(j, k)` of the two input arrays as the region found
  them, whatever those contents are.
-/
import proofs.«102031_j84954453114998_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«102031_j84954453114998_1_alg».proof.Proof.LibMatmul

set_option maxRecDepth 16384

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Proj

variable (V : (c : Dev nD) → (b : Ref sig .tc) → Buf (Elt Ideal) ((c : Thread nD τ).loc b))

/-- x @ W.T read at (n, j): the sum over the 128 input channels of x[n,k]·W[j,k] -/
def projG (a0 : S100000x128.Idx → EReal) (a2 : S16x128.Idx → EReal) : S100000x16.Idx → EReal :=
  fun i => ∑ k : Fin 128, a0 (ix2 (⟨(i 0).val, idx2_lt0 i⟩ : Fin 100000) k) * a2 (ix2 (⟨(i 1).val, idx2_lt1 i⟩ : Fin 16) k)

theorem projG_ix2 (a0 : S100000x128.Idx → EReal) (a2 : S16x128.Idx → EReal) (n : Fin 100000) (j : Fin 16) :
    projG a0 a2 (ix2 n j) = ∑ k : Fin 128, a0 (ix2 n k) * a2 (ix2 j k) := rfl

/-- The body's arithmetic at one element of a block: row `p` of the block of `x` against row `q` of the weights. -/
theorem pay_apply (x0 : Vec Ideal S10000x128 .f32) (x1 : Vec Ideal S16x128 .f32) (p : Fin 10000) (q : Fin 16) :
    k0_pay1 x0 x1 (ix2 p q) = ∑ k : Fin 128, x0 (ix2 p k) * x1 (ix2 q k) := by
  unfold k0_pay1
  refine (Cert.MatOps.matmul_plain_zero_apply (M := 10000) (K := 128) (N := 16) none _ _ p q).trans ?_
  refine Finset.sum_congr rfl fun k _ => ?_
  exact congrArg (fun z => x0 (ix2 p k) * z) (Cert.MatOps.transpose10_apply _ _ k q)

/-- The printed index maps over the grid: the row block of `x` and of the result is the grid point, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 10000) : 10000 * t.val + p.val < 100000 := by
  have := t.isLt; have hN : cfg0.N = 10 := N_0; have := p.isLt; omega

/-- Block `t` of `x` is rows `10000·t …` of the array as the region found it. -/
theorem iblk0_0_apply (c : Dev nD) (t : Fin cfg0.N) (p : Fin 10000) (k : Fin 128) :
    (iblk0 V c 0 t : Vec Ideal S10000x128 .f32) (ix2 p k) = V c main_arg0 (ix2 (⟨10000 * t.val + p.val, row_lt t p⟩ : Fin 100000) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

/-- The weights' window sits at block (0, 0) at every point: its block is the whole array. -/
theorem iblk0_1_apply (c : Dev nD) (t : Fin cfg0.N) (q : Fin 16) (k : Fin 128) :
    (iblk0 V c 1 t : Vec Ideal S16x128 .f32) (ix2 q k) = V c main_arg2 (ix2 q k) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 16 + 1 * q.val = q.val; rw [e0]; omega
  | ⟨1, _⟩ => show win0_1.index t (1 : Fin 2) * 128 + 1 * k.val = k.val; rw [e1]; omega

theorem hz : (![0, 0] : Fin 2 → Nat) = fun _ => 0 := funext fun a => by fin_cases a <;> rfl

/-- WHAT POINT `t` WRITES BACK is block `t` of the product of the two arrays as the region found them. -/
theorem flushed_eq (c : Dev nD) (t : Fin cfg0.N) :
    (dat0 (F := Ideal) V c).flushed 2 t = ((cfg0.win 2).blk t).view.read (Elt Ideal) (projG (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S16x128) hz]
  obtain ⟨-, -, -, -, e0, e1⟩ := idx_facts t
  funext j
  obtain ⟨p, q, rfl⟩ : ∃ (p : Fin 10000) (q : Fin 16), j = ix2 p q := ⟨j 0, j 1, eq_ix2 j⟩
  have hemb : ((cfg0.win 2).blk t).view.emb (ix2 p q) = ix2 (⟨10000 * t.val + p.val, row_lt t p⟩ : Fin 100000) q := by
    funext a; apply Fin.ext
    match a with
    | ⟨0, _⟩ => show win0_2.index t (0 : Fin 2) * 10000 + 1 * p.val = 10000 * t.val + p.val; rw [e0]; omega
    | ⟨1, _⟩ => show win0_2.index t (1 : Fin 2) * 16 + 1 * q.val = q.val; rw [e1]; omega
  show k0_pay1 (iblk0 V c 0 t) (iblk0 V c 1 t) (ix2 p q) = projG (V c main_arg0) (V c main_arg2) (((cfg0.win 2).blk t).view.emb (ix2 p q))
  rw [hemb, projG_ix2]
  refine (pay_apply _ _ p q).trans ?_
  refine Finset.sum_congr rfl fun k _ => ?_
  rw [iblk0_0_apply, iblk0_1_apply]

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- Every one of the ten row blocks is SOME point's. -/
theorem idx_onto : ∀ q : Fin 10, ∃ t : Fin cfg0.N, win0_2.index t = ![q.val, 0] :=
  (by decide +kernel : ∀ q : Fin 10, ∃ t : Fin grid0.N, win0_2.index t = ![q.val, 0])

/-- The blocks tile the result: row `r` is in the block of the point with row block `r / 10000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- THE RESULT: after the region the output window's array is projG of the two input arrays as the region found them -/
theorem proj_final (c : Dev nD) : (dat0 (F := Ideal) V c).arrAt 2 cfg0.N = projG (V c main_arg0) (V c main_arg2) :=
  (dat0 V c).arrAt_eq_of_cover 2 (projG (V c main_arg0) (V c main_arg2)) (fun t _ => flushed_eq V c t) cover

end Cert.KernelIdeal.Proj
-- ==== Proof.Region1.lean ====
/-
  The finishing kernel in closed form, at the ideal (extended-real) values, for any contents of the buffers when the
  region is entered.

  Block `t` of the finishing kernel takes rows `10000·t … 10000·t + 9999` of the propagated features `h : [100000, 16]`,
  and, whole at every point, the bias row `b : [1, 16]`, the weights `w : [40, 16]` and the bias row `b2 : [1, 40]`;
  it stores `out[p, q] = (∑ₖ max(h[p, k] + b[0, k], 0) · w[q, k]) + b2[0, q]`. At the ideal values the two narrowing
  format changes are the identity, the matrix product accumulates into the zero splat, and the transposed weights read
  `w[q, k]` at `(k, q)`. The ten row blocks tile the `[100000, 40]` result, so after the region the result array is
  that function (`finG`) of the four arrays as the region found them (`fin_final`).
-/
import proofs.«102031_j84954453114998_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«102031_j84954453114998_1_alg».proof.Proof.LibMatmul

set_option maxRecDepth 16384

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Fin

variable (V : (c : Dev nD) → (b : Ref sig .tc) → Buf (Elt Ideal) ((c : Thread nD τ).loc b))

/-- The body's arithmetic at one element of the output block: the row of the feature block plus the bias row,
    clamped below at zero, contracted with row `q` of the weights, plus the second bias at `q`. -/
theorem pay_apply (x0 : Vec Ideal S10000x16 .f32) (x1 : Vec Ideal S1x16 .f32) (x2 : Vec Ideal S40x16 .f32) (x3 : Vec Ideal S1x40 .f32)
    (p : Fin 10000) (q : Fin 40) :
    k1_pay1 (F := Ideal) x0 x1 x2 x3 (ix2 p q)
      = (∑ k : Fin 16, max (x0 (ix2 p k) + x1 (ix2 (0 : Fin 1) k)) (Ideal.ofBits .f32 0x00000000#32) * x2 (ix2 q k)) + x3 (ix2 (0 : Fin 1) q) := by
  unfold k1_pay1
  have e : dot_S10000x16_S16x40_S10000x40_1_0_0_1_n_n = DotDims.plain 10000 16 40 := rfl
  simp only [shapeCast_self]
  rw [e]
  refine (addf_apply _ _ _).trans ?_
  rw [Cert.MatOps.matmul_plain_zero_apply, broadcastTo_1b_ab_apply]
  congr 1
  refine Finset.sum_congr rfl fun k _ => ?_
  rw [Cert.MatOps.transpose10_apply]
  show max (x0 (ix2 p k) + broadcastTo S10000x16 x1 broadcasts_S1x16_S10000x16 (ix2 p k)) _ * _ = _
  rw [broadcastTo_1b_ab_apply]
  rfl

/-- The zero offsets of a whole-buffer access. -/
theorem hz : (![0, 0] : Fin 2 → Nat) = fun _ => 0 := funext fun a => by fin_cases a <;> rfl

/-- The finishing layer read at `(n, q)`: the feature row `n` plus the first bias, clamped below at zero, contracted
    with row `q` of the weights, plus the second bias at `q`. -/
def finG (h : S100000x16.Idx → EReal) (b : S1x16.Idx → EReal) (w : S40x16.Idx → EReal) (b2 : S1x40.Idx → EReal) :
    S100000x40.Idx → EReal :=
  fun i => (∑ k : Fin 16, max (h (ix2 (⟨(i 0).val, idx2_lt0 i⟩ : Fin 100000) k) + b (ix2 (0 : Fin 1) k)) (Ideal.ofBits .f32 0x00000000#32)
      * w (ix2 (⟨(i 1).val, idx2_lt1 i⟩ : Fin 40) k)) + b2 (ix2 (0 : Fin 1) (⟨(i 1).val, idx2_lt1 i⟩ : Fin 40))

theorem finG_ix2 (h : S100000x16.Idx → EReal) (b : S1x16.Idx → EReal) (w : S40x16.Idx → EReal) (b2 : S1x40.Idx → EReal)
    (n : Fin 100000) (q : Fin 40) :
    finG h b w b2 (ix2 n q)
      = (∑ k : Fin 16, max (h (ix2 n k) + b (ix2 0 k)) (Ideal.ofBits .f32 0x00000000#32) * w (ix2 q k)) + b2 (ix2 0 q) := rfl

/-- The printed index maps over the ten grid points: the feature window and the result window are at row block `t`,
    the bias and weight windows at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block of the result is some point's. -/
theorem idx_onto : ∀ q : Fin 10, ∃ t : Fin cfg1.N, win1_4.index t = ![q.val, 0] :=
  (by decide +kernel : ∀ q : Fin 10, ∃ t : Fin grid1.N, win1_4.index t = ![q.val, 0])

theorem row_lt (t : Fin cfg1.N) (p : Fin 10000) : 10000 * t.val + p.val < 100000 := by
  have hN : cfg1.N = 10 := N_1
  have := t.isLt
  have := p.isLt
  omega

/-- The feature window's block at point `t` is rows `10000·t … 10000·t + 9999` of the feature array. -/
theorem iblk_h_apply (c : Dev nD) (t : Fin cfg1.N) (p : Fin 10000) (k : Fin 16) :
    (iblk1 V c 0 t : Vec Ideal S10000x16 .f32) (ix2 p k) = (V c main_v58 : S100000x16.Idx → EReal) (ix2 (⟨10000 * t.val + p.val, row_lt t p⟩ : Fin 100000) k) := by
  obtain ⟨e0, e1, -⟩ := idx_facts t
  unfold iblk1
  rw [View.read_apply]
  show V c main_v58 _ = V c main_v58 _
  congr 1
  funext a
  apply Fin.ext
  match a with
  | ⟨0, _⟩ => show win1_0.index t (0 : Fin 2) * 10000 + 1 * p.val = 10000 * t.val + p.val; omega
  | ⟨1, _⟩ => show win1_0.index t (1 : Fin 2) * 16 + 1 * k.val = k.val; omega

/-- The first bias window's block is the whole bias row at every point. -/
theorem iblk_b_apply (c : Dev nD) (t : Fin cfg1.N) (k : Fin 16) :
    (iblk1 V c 1 t : Vec Ideal S1x16 .f32) (ix2 (0 : Fin 1) k) = (V c main_v59 : S1x16.Idx → EReal) (ix2 (0 : Fin 1) k) := by
  obtain ⟨-, -, e0, e1, -⟩ := idx_facts t
  unfold iblk1
  rw [View.read_apply]
  show V c main_v59 _ = V c main_v59 _
  congr 1
  funext a
  apply Fin.ext
  match a with
  | ⟨0, _⟩ => show win1_1.index t (0 : Fin 2) * 1 + 1 * 0 = 0; omega
  | ⟨1, _⟩ => show win1_1.index t (1 : Fin 2) * 16 + 1 * k.val = k.val; omega

/-- The weight window's block is the whole weight matrix at every point. -/
theorem iblk_w_apply (c : Dev nD) (t : Fin cfg1.N) (q : Fin 40) (k : Fin 16) :
    (iblk1 V c 2 t : Vec Ideal S40x16 .f32) (ix2 q k) = (V c main_arg4 : S40x16.Idx → EReal) (ix2 q k) := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 40 + 1 * q.val = q.val; omega
  | ⟨1, _⟩ => show win1_2.index t (1 : Fin 2) * 16 + 1 * k.val = k.val; omega

/-- The second bias window's block is the whole bias row at every point. -/
theorem iblk_b2_apply (c : Dev nD) (t : Fin cfg1.N) (q : Fin 40) :
    (iblk1 V c 3 t : Vec Ideal S1x40 .f32) (ix2 (0 : Fin 1) q) = (V c main_v60 : S1x40.Idx → EReal) (ix2 (0 : Fin 1) q) := by
  obtain ⟨-, -, -, -, -, -, e0, e1, -⟩ := idx_facts t
  unfold iblk1
  rw [View.read_apply]
  show V c main_v60 _ = V c main_v60 _
  congr 1
  funext a
  apply Fin.ext
  match a with
  | ⟨0, _⟩ => show win1_3.index t (0 : Fin 2) * 1 + 1 * 0 = 0; omega
  | ⟨1, _⟩ => show win1_3.index t (1 : Fin 2) * 40 + 1 * q.val = q.val; omega

/-- Where the result window's block at point `t` sits in the result array: row `10000·t + p`, column `q`. -/
theorem emb_out (t : Fin cfg1.N) (p : Fin 10000) (q : Fin 40) :
    (((cfg1.win 4).blk t).view.emb (ix2 p q) : S100000x40.Idx) = ix2 (⟨10000 * t.val + p.val, row_lt t p⟩ : Fin 100000) q := by
  obtain ⟨-, -, -, -, -, -, -, -, e0, e1⟩ := idx_facts t
  funext a
  apply Fin.ext
  match a with
  | ⟨0, _⟩ => show win1_4.index t (0 : Fin 2) * 10000 + 1 * p.val = 10000 * t.val + p.val; omega
  | ⟨1, _⟩ => show win1_4.index t (1 : Fin 2) * 40 + 1 * q.val = q.val; omega

/-- WHAT POINT `t` WRITES BACK is block `t` of the finishing layer of the four arrays as the region finds them. -/
theorem flushed_eq (c : Dev nD) (t : Fin cfg1.N) :
    (dat1 (F := Ideal) V c).flushed 4 t
      = ((cfg1.win 4).blk t).view.read (Elt Ideal) (finG (V c main_v58) (V c main_v59) (V c main_arg4) (V c main_v60)) := by
  show (cfg1.win 4).cut (grid1.coords t) ((dat1 V c).after 4 t) = _
  rw [after1_4]
  unfold out1_4
  rw [View.canon_unit_zero hz]
  simp only [View.ld_unit_zero (S := S10000x16) hz, View.ld_unit_zero (S := S1x16) hz, View.ld_unit_zero (S := S40x16) hz,
    View.ld_unit_zero (S := S1x40) hz]
  funext j
  obtain ⟨p, q, rfl⟩ : ∃ (p : Fin 10000) (q : Fin 40), j = ix2 p q := ⟨j 0, j 1, eq_ix2 j⟩
  show k1_pay1 (F := Ideal) (iblk1 V c 0 t) (iblk1 V c 1 t) (iblk1 V c 2 t) (iblk1 V c 3 t) (ix2 p q)
    = finG (V c main_v58) (V c main_v59) (V c main_arg4) (V c main_v60) (((cfg1.win 4).blk t).view.emb (ix2 p q))
  refine (pay_apply (iblk1 V c 0 t) (iblk1 V c 1 t) (iblk1 V c 2 t) (iblk1 V c 3 t) p q).trans ?_
  rw [emb_out, finG_ix2]
  simp only [iblk_h_apply, iblk_b_apply, iblk_w_apply, iblk_b2_apply]

/-- An index of the result array is in point `t`'s block iff each coordinate is in the block's range on its axis. -/
theorem mem_blk (t : Fin cfg1.N) (i : S100000x40.Idx) :
    i ∈ ((cfg1.win 4).blk t).view.set ↔ ∀ a : Fin 2, win1_4.index t a * S10000x40.size a ≤ (i a).val ∧ (i a).val < win1_4.index t a * S10000x40.size a + S10000x40.size a := by
  show i ∈ ((View.whole main_v61).slice (win1_4.rect t)).set ↔ _
  rw [View.set_slice_whole, Rect.mem_set_unit]
  exact Iff.rfl

/-- The ten row blocks tile the result: row `r` is in the block of point `r / 10000`. -/
theorem cover (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 40 ≤ (i 1).val ∧ (i 1).val < win1_4.index t (1 : Fin 2) * 40 + 40; omega

/-- THE RESULT: after the region the result array is the finishing layer of the four arrays as the region found them. -/
theorem fin_final (c : Dev nD) :
    (dat1 (F := Ideal) V c).arrAt 4 cfg1.N = finG (V c main_v58) (V c main_v59) (V c main_arg4) (V c main_v60) :=
  (dat1 V c).arrAt_eq_of_cover 4 (finG (V c main_v58) (V c main_v59) (V c main_arg4) (V c main_v60))
    (fun t _ => flushed_eq V c t) cover

end Cert.KernelIdeal.Fin

end
-- ==== Proof.KernelValue.lean ====
/-
  The kernel program's result as one function of its six arguments, at the ideal instance: the finishing region's
  closed form, of two hops of the projection region's closed form along the normalised graph, and of the two biases
  reshaped to rows. Each buffer a region reads is followed back through the segment boundaries to the launch memory.
-/
import proofs.«102031_j84954453114998_1_alg».proof.Proof.KernelHost
import proofs.«102031_j84954453114998_1_alg».proof.Proof.Region0
import proofs.«102031_j84954453114998_1_alg».proof.Proof.Region1

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The kernel's result: project, hop twice, finish. -/
def kerOut (a0 : FVec Ideal S100000x128 .f32) (a1 : IVec S2x1600000 32) (a2 : FVec Ideal S16x128 .f32) (a3 : FVec Ideal S16 .f32)
    (a4 : FVec Ideal S40x16 .f32) (a5 : FVec Ideal S40 .f32) : FVec Ideal S100000x40 .f32 :=
  Cert.KernelIdeal.Fin.finG
    (Cert.Graph.hop16 (F := Ideal) (Cert.Graph.norm (F := Ideal) a1) (Cert.Graph.asCol (Cert.Graph.wrapIdx (Cert.Graph.rowIdx a1))) (Cert.Graph.asCol (Cert.Graph.colIdx a1))
      (Cert.Graph.hop16 (F := Ideal) (Cert.Graph.norm (F := Ideal) a1) (Cert.Graph.asCol (Cert.Graph.wrapIdx (Cert.Graph.rowIdx a1))) (Cert.Graph.asCol (Cert.Graph.colIdx a1))
        (Cert.KernelIdeal.Proj.projG a0 a2)))
    (shapeCast S1x16 a3 Facts₀.shapeCasts_S16_S1x16) a4 (shapeCast S1x40 a5 Facts₀.shapeCasts_S40_S1x40)

/-- The projection region's result array, from the launch memory. -/
theorem W4_v32 (c : Dev nD) : W4 m ρ c (Proc.devRef .tc main_v32)
    = Cert.KernelIdeal.Proj.projG (m ((c : Thread nD τ).loc main_arg0)) (m ((c : Thread nD τ).loc main_arg2)) := by
  refine (W4_arr m ρ c 2).trans ?_
  rw [Cert.KernelIdeal.Proj.proj_final (V3 m ρ) c]
  show Cert.KernelIdeal.Proj.projG (W3 m ρ c (Proc.devRef .tc main_arg0)) (W3 m ρ c (Proc.devRef .tc main_arg2)) = _
  rw [W3_arg0, W3_arg2]

/-- The last segment boundary's contents at the result buffer. -/
theorem result_eq (c : Dev nD) : W6 m ρ c (Proc.devRef .tc main_v61)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 4).trans ?_
  rw [Cert.KernelIdeal.Fin.fin_final (V5 m ρ) c]
  show Cert.KernelIdeal.Fin.finG (W5 m ρ c (Proc.devRef .tc main_v58)) (W5 m ρ c (Proc.devRef .tc main_v59))
      (W5 m ρ c (Proc.devRef .tc main_arg4)) (W5 m ρ c (Proc.devRef .tc main_v60)) = _
  rw [W5_v58, W5_v59, W5_v60, W5_arg4, W4_v31, W4_v3, W4_v6, W4_v32, W4_arg3, W4_arg4, W4_arg5]
  rfl

end Cert.KernelIdeal.Hand

end
-- ==== Proof.LibRowGatherScatter.lean ====
/-
  Row gather and accumulating row scatter, read at an index.

  For a matrix `x : [N, D]` and a column of integer indices `idx : [E, 1]`:

  * the row gather (offset axis 1 of the result, collapsed axis 0 of the operand, start index map `[0]`, index vector
    axis 1, slice sizes `[1, D]`) has at `(e, c)` the element of `x` in column `c` of row `idx[e, 0]`, the start
    index read as a signed integer and clamped into `[0, N - 1]`;
  * the row scatter (window axis 1 of the updates, inserted axis 0 of the operand, scatter map `[0]`, index vector
    axis 1) sends update element `(e, c)` to operand element `(idx[e, 0], c)`, the start index read as a signed integer
    and NOT clamped: the update is dropped when that row is outside `[0, N)`. With an adding body, operand element
    `(n, c)` therefore receives the sum of `upd (e, c)` over the `e` whose start index equals `n`.
-/
import Idealize.ShloMosaic.PureOps.Ideal
import Idealize.ShloMosaic.Lib.ValueIdx
open scoped BigOperators
noncomputable section
namespace Cert.RowOps
open Idealize.ShloMosaic Idealize.ShloMosaic.ValueIdx

/-- the dimension numbers of a row gather -/
abbrev rowGatherDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, c) -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N E D wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- the dimension numbers of a row scatter -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Coordinates
variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the start is the start index `idx[e, 0]` read signed. -/
theorem rowScatter_start0 :
    (rowScatterDims N E D wf).start (ix2 e c) idx (0 : Fin 2) = (idx (ix2 e (0 : Fin 1))).toInt := by
  unfold ScatterDims.start
  rw [dif_pos (show (0 : Fin 2) ∈ ([0] : List (Fin 2)) by decide)]
  have hsi : (rowScatterDims N E D wf).siIdx (ix2 e c) ⟨List.idxOf (0 : Fin 2) (rowScatterDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter map does not name, the start is 0. -/
theorem rowScatter_start1 : (rowScatterDims N E D wf).start (ix2 e c) idx (1 : Fin 2) = 0 := by
  unfold ScatterDims.start
  rw [dif_neg (show (1 : Fin 2) ∉ ([0] : List (Fin 2)) by decide)]

/-- The row axis is inserted: its window coordinate is 0. -/
theorem rowScatter_window0 : (rowScatterDims N E D wf).window (ix2 e c) (0 : Fin 2) = 0 := rfl

/-- The column axis carries the update's column. -/
theorem rowScatter_window1 : (rowScatterDims N E D wf).window (ix2 e c) (1 : Fin 2) = c.val := rfl

end Coordinates

/-- where update element (e, c) lands -/
theorem rowScatter_resultIdx_iff {N E D w : Nat} (wf : ScatterDims.WF ⟨2, ![N, D]⟩ ⟨2, ![E, 1]⟩ ⟨2, ![E, D]⟩ [1] [0] [0] 1)
    (idx : IVec ⟨2, ![E, 1]⟩ w) (e : Fin E) (c : Fin D) (n : Fin N) (c' : Fin D) :
    (rowScatterDims N E D wf).resultIdx? (ix2 e c) idx = some (ix2 n c') ↔ ((idx (ix2 e (0 : Fin 1))).toInt = (n.val : ℤ) ∧ c = c') := by
  have s0 := rowScatter_start0 wf idx e c
  have s1 := rowScatter_start1 wf idx e c
  have w0 := rowScatter_window0 wf e c
  have w1 := rowScatter_window1 wf e c
  unfold ScatterDims.resultIdx?
  split
  · rename_i h
    rw [Option.some.injEq]
    constructor
    · intro hEq
      have e0 : ((rowScatterDims N E D wf).start (ix2 e c) idx (0 : Fin 2)
          + ((rowScatterDims N E D wf).window (ix2 e c) (0 : Fin 2) : ℤ)).toNat = n.val :=
        congrArg Fin.val (congrFun hEq (0 : Fin 2))
      have e1 : ((rowScatterDims N E D wf).start (ix2 e c) idx (1 : Fin 2)
          + ((rowScatterDims N E D wf).window (ix2 e c) (1 : Fin 2) : ℤ)).toNat = c'.val :=
        congrArg Fin.val (congrFun hEq (1 : Fin 2))
      have h0 := (h (0 : Fin 2)).1
      rw [s0, w0] at e0 h0
      rw [s1, w1] at e1
      refine ⟨by omega, Fin.ext (by omega)⟩
    · rintro ⟨hn, rfl⟩
      funext a
      refine Fin.ext ?_
      match a with
      | ⟨0, _⟩ =>
        show ((rowScatterDims N E D wf).start (ix2 e c) idx (0 : Fin 2)
          + ((rowScatterDims N E D wf).window (ix2 e c) (0 : Fin 2) : ℤ)).toNat = n.val
        rw [s0, w0]; omega
      | ⟨1, _⟩ =>
        show ((rowScatterDims N E D wf).start (ix2 e c) idx (1 : Fin 2)
          + ((rowScatterDims N E D wf).window (ix2 e c) (1 : Fin 2) : ℤ)).toNat = c.val
        rw [s1, w1]; omega
  · rename_i h
    constructor
    · intro hEq; cases hEq
    · rintro ⟨hn, rfl⟩
      exfalso; apply h
      intro a
      match a with
      | ⟨0, _⟩ =>
        show 0 ≤ (rowScatterDims N E D wf).start (ix2 e c) idx (0 : Fin 2)
            + ((rowScatterDims N E D wf).window (ix2 e c) (0 : Fin 2) : ℤ)
          ∧ (rowScatterDims N E D wf).start (ix2 e c) idx (0 : Fin 2)
            + ((rowScatterDims N E D wf).window (ix2 e c) (0 : Fin 2) : ℤ) < (N : ℤ)
        rw [s0, w0]; have := n.isLt; omega
      | ⟨1, _⟩ =>
        show 0 ≤ (rowScatterDims N E D wf).start (ix2 e c) idx (1 : Fin 2)
            + ((rowScatterDims N E D wf).window (ix2 e c) (1 : Fin 2) : ℤ)
          ∧ (rowScatterDims N E D wf).start (ix2 e c) idx (1 : Fin 2)
            + ((rowScatterDims N E D wf).window (ix2 e c) (1 : Fin 2) : ℤ) < (D : ℤ)
        rw [s1, w1]; have := c.isLt; omega

/-- THE ACCUMULATING ROW SCATTER AT THE IDEAL INSTANCE READ AT (n, c) -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal) (n : Fin N) (c : Fin D) :
    Ideal.hostScatterAdd (rowScatterDims N E D wf) x idx upd (ix2 n c)
      = x (ix2 n c) + ∑ e ∈ Finset.univ.filter (fun e : Fin E => (idx (ix2 e (0 : Fin 1))).toInt = (n.val : ℤ)), upd (ix2 e c) := by
  unfold Ideal.hostScatterAdd
  congr 1
  rw [Finset.sum_filter, sum_idx2, Finset.sum_filter]
  refine Finset.sum_congr rfl fun e _ => ?_
  simp only [rowScatter_resultIdx_iff wf idx e _ n c]
  by_cases he : (idx (ix2 e (0 : Fin 1))).toInt = (n.val : ℤ)
  · simp only [he, true_and, if_true]
    rw [Finset.sum_ite_eq' Finset.univ c (fun c'' => upd (ix2 e c''))]
    simp
  · simp only [he, false_and, if_false]
    exact Finset.sum_const_zero
end Cert.RowOps
-- ==== Proof.LibHopAlgebra.lean ====
/-
  Graph propagation over the extended reals commutes with a right matrix product,
  for real-valued data.

  A propagation step ("hop") gathers, at every node `n`, the weighted features of the
  sources of the edges landing at `n`:

      hop S src w h n k = 0 + ∑ e ∈ S n, w e * h (src e) k,

  where `S n` is the finite set of edges landing at `n`, `src e` is the source node of
  the edge `e`, `w e` its weight, and `h a k` the `k`-th feature of the node `a`.
  The leading `0 +` is the initial value of the accumulator the sum is folded into.

  Multiplying the features on the right by a matrix `B` is linear, and a hop is linear,
  so over a commutative ring the two commute:

      ∑ k, (∑ e, w e * h (src e) k) * B k j = ∑ e, w e * ∑ k, h (src e) k * B k j,

  by distributing both products over the sums, exchanging the two finite sums and
  re-associating the product. Over the extended reals `[-∞, +∞]` this argument is NOT
  available: multiplication does not distribute over addition there (`⊤ + ⊥ = ⊥` and
  `0 * ⊤ = 0`, so `(1 + (-1)) * ⊤ = 0` while `1 * ⊤ + (-1) * ⊤ = ⊥`). The statement is
  therefore made for data that are coercions of real numbers: every extended-real
  expression below is first shown to be the coercion of the same expression computed in
  `ℝ` (the coercion `ℝ → EReal` preserves `0`, `+`, `*`, hence finite sums), and the
  identity is then proved in `ℝ`, where it is the ring computation above.
-/
import Mathlib.Data.EReal.Basic
import Mathlib.Algebra.BigOperators.Group.Finset.Sigma
import Mathlib.Algebra.BigOperators.Ring.Finset

open scoped BigOperators

namespace Cert.HopAlgebra

variable {ι ν κ γ : Type} [Fintype κ]

/-- the coercion of a finite real sum -/
theorem coe_sum {α : Type} (s : Finset α) (f : α → ℝ) :
    ((∑ a ∈ s, f a : ℝ) : EReal) = ∑ a ∈ s, (f a : EReal) := by
  classical
  induction s using Finset.induction_on with
  | empty => rw [Finset.sum_empty, Finset.sum_empty, EReal.coe_zero]
  | insert a s ha ih =>
    rw [Finset.sum_insert ha, Finset.sum_insert ha, EReal.coe_add, ih]

/-- one propagation step over the extended reals -/
noncomputable def hop {κ' : Type} (S : ν → Finset ι) (src : ι → ν) (w : ι → EReal) (h : ν → κ' → EReal)
    (n : ν) (k : κ') : EReal :=
  0 + ∑ e ∈ S n, w e * h (src e) k

/-- the same step over the reals -/
noncomputable def hopR {κ' : Type} (S : ν → Finset ι) (src : ι → ν) (w : ι → ℝ) (h : ν → κ' → ℝ)
    (n : ν) (k : κ') : ℝ :=
  ∑ e ∈ S n, w e * h (src e) k

/-- a hop of real-valued data is the coercion of the real hop -/
theorem hop_coe {κ' : Type} (S) (src) (w : ι → ℝ) (h : ν → κ' → ℝ) (n : ν) (k : κ') :
    hop S src (fun e => (w e : EReal)) (fun a c => (h a c : EReal)) n k
      = ((hopR S src w h n k : ℝ) : EReal) := by
  unfold hop hopR
  rw [zero_add, coe_sum]
  exact Finset.sum_congr rfl (fun e _ => (EReal.coe_mul _ _).symm)

/-- a real contraction as a coercion -/
theorem dot_coe (a : κ → ℝ) (b : κ → ℝ) :
    (∑ k, (a k : EReal) * (b k : EReal)) = ((∑ k, a k * b k : ℝ) : EReal) := by
  rw [coe_sum]
  exact Finset.sum_congr rfl (fun k _ => (EReal.coe_mul _ _).symm)

/-- over the reals a hop commutes with right multiplication by a matrix -/
theorem hopR_dot (S) (src) (w : ι → ℝ) (h : ν → κ → ℝ) (B : κ → γ → ℝ) (n : ν) (j : γ) :
    ∑ k, hopR S src w h n k * B k j
      = hopR S src w (fun a j' => ∑ k, h a k * B k j') n j := by
  unfold hopR
  -- distribute: each side becomes a double sum of the triple products
  have hl : ∀ k, (∑ e ∈ S n, w e * h (src e) k) * B k j
      = ∑ e ∈ S n, w e * (h (src e) k * B k j) := fun k => by
    rw [Finset.sum_mul]
    exact Finset.sum_congr rfl (fun e _ => mul_assoc _ _ _)
  have hr : ∀ e, w e * ∑ k, h (src e) k * B k j
      = ∑ k, w e * (h (src e) k * B k j) := fun e => Finset.mul_sum _ _ _
  rw [Finset.sum_congr rfl (fun k _ => hl k), Finset.sum_congr rfl (fun e _ => hr e)]
  -- exchange the sum over features and the sum over edges
  exact Finset.sum_comm

/-- THE RESULT: two hops then the contraction with B  =  the contraction with B then two
hops, for real-valued data -/
theorem hop_hop_dot (S : ν → Finset ι) (src : ι → ν) (w : ι → ℝ) (x : ν → κ → ℝ)
    (B : κ → γ → ℝ) (n : ν) (j : γ) :
    ∑ k, hop S src (fun e => (w e : EReal))
          (hop S src (fun e => (w e : EReal)) (fun a k => (x a k : EReal))) n k * (B k j : EReal)
      = hop S src (fun e => (w e : EReal))
          (hop S src (fun e => (w e : EReal))
            (fun a j' => ∑ k, (x a k : EReal) * (B k j' : EReal))) n j := by
  -- the inner hop of the left side is the coercion of a real hop
  have h1 : hop S src (fun e => (w e : EReal)) (fun a k => (x a k : EReal))
      = fun a k => ((hopR S src w x a k : ℝ) : EReal) := by
    funext a k; exact hop_coe S src w x a k
  -- the contraction with B is the coercion of a real contraction
  have h2 : (fun a j' => ∑ k, (x a k : EReal) * (B k j' : EReal))
      = fun a j' => (((∑ k, x a k * B k j') : ℝ) : EReal) := by
    funext a j'; exact dot_coe _ _
  -- hence the inner hop of the right side is the coercion of a real hop, too
  have h3 : hop S src (fun e => (w e : EReal))
        (fun a j' => (((∑ k, x a k * B k j') : ℝ) : EReal))
      = fun a j' => ((hopR S src w (fun a j' => ∑ k, x a k * B k j') a j' : ℝ) : EReal) := by
    funext a j'; exact hop_coe S src w (fun a j' => ∑ k, x a k * B k j') a j'
  -- the outer hops
  have h4 : ∀ k, hop S src (fun e => (w e : EReal))
        (fun a k => ((hopR S src w x a k : ℝ) : EReal)) n k
      = ((hopR S src w (hopR S src w x) n k : ℝ) : EReal) :=
    fun k => hop_coe S src w (hopR S src w x) n k
  have h5 : hop S src (fun e => (w e : EReal))
        (fun a j' => ((hopR S src w (fun a j' => ∑ k, x a k * B k j') a j' : ℝ) : EReal)) n j
      = ((hopR S src w (hopR S src w (fun a j' => ∑ k, x a k * B k j')) n j : ℝ) : EReal) :=
    hop_coe S src w (hopR S src w (fun a j' => ∑ k, x a k * B k j')) n j
  rw [h1, h2, h3, h5, Finset.sum_congr rfl (fun k _ => by rw [h4 k]),
    dot_coe (fun k => hopR S src w (hopR S src w x) n k) (fun k => B k j)]
  -- both sides are coercions; the identity is now one between real numbers
  congr 1
  rw [hopR_dot S src w (hopR S src w x) B n j]
  -- the inner hop commutes with the contraction, node by node
  have h6 : (fun a j' => ∑ k, hopR S src w x a k * B k j')
      = hopR S src w (fun a j' => ∑ k, x a k * B k j') := by
    funext a j'; exact hopR_dot S src w x B a j'
  rw [h6]

end Cert.HopAlgebra
-- ==== Proof.HopBridge.lean ====
/-
  Two propagation hops commute with the projection onto the hidden channels, for real data.

  A hop of the printed programs gathers the rows of a feature matrix `h : [100000, D]` at the
  source column `src : [1700000, 1]` (row `e` of the gather is row `srcRow src e` of `h`: the start
  index read signed and clamped into `[0, 99999]`), scales row `e` by the edge weight `nrm e`,
  and adds the scaled rows into a zero matrix along the target column `tgt` (row `e` lands in
  row `n` exactly when the start index `tgt[e, 0]`, read signed, equals `n`; otherwise nowhere).
  Read at `(n, c)` it is therefore

      0 + ∑ e ∈ tgtSet tgt n, nrm e * h (srcRow src e, c),

  the abstract propagation step `hop (tgtSet tgt) (srcRow src) nrm h`, for `D = 128` (the
  reference's hops) and for `D = 16` (the kernel's) alike. The reference's projection is the
  matrix product with the transposed weight, `∑ k, h (n, k) * W (j, k)` at `(n, j)`.

  The reference hops twice and then projects; the kernel projects and then hops twice. For
  real-valued weights, features and projection matrix the two agree: this is the algebraic
  identity `hop_hop_dot` (a hop is linear and so commutes with a right matrix product; the
  data must be real because multiplication does not distribute over addition at the
  infinities of the extended reals).
-/
import proofs.«102031_j84954453114998_1_alg».proof.Proof.GraphTerms
import proofs.«102031_j84954453114998_1_alg».proof.Proof.LibRowGatherScatter
import proofs.«102031_j84954453114998_1_alg».proof.Proof.LibHopAlgebra
import proofs.«102031_j84954453114998_1_alg».proof.Proof.LibMatmul

open scoped BigOperators

noncomputable section

namespace Cert.Graph

open Idealize.ShloMosaic Idealize.ShloMosaic.ValueIdx Cert.HopAlgebra

/-- the source row of edge e: the start index read signed and clamped into [0, 99999] -/
def srcRow (src : IVec ⟨2, ![1700000, 1]⟩ 32) (e : Fin 1700000) : Fin 100000 :=
  ⟨min (src (ix2 e (0 : Fin 1))).toInt.toNat (100000 - 1), by omega⟩

/-- the edges that land on node n: the start index read signed, equal to n (an index outside
[0, 99999] lands nowhere) -/
def tgtSet (tgt : IVec ⟨2, ![1700000, 1]⟩ 32) (n : Fin 100000) : Finset (Fin 1700000) :=
  Finset.univ.filter (fun e => (tgt (ix2 e (0 : Fin 1))).toInt = (n.val : ℤ))

/-- an edge weight broadcast along the channels, read at (e, c), is the weight of edge e -/
theorem nrmBcast_apply {D : Nat}
    (h1 : (⟨1, ![1700000]⟩ : Shape).BroadcastsInDim ⟨2, ![1700000, 1]⟩ ![0])
    (h2 : (⟨2, ![1700000, 1]⟩ : Shape).BroadcastsInDim ⟨2, ![1700000, D]⟩ ![0, 1])
    (nrm : (⟨1, ![1700000]⟩ : Shape).Idx → EReal) (e : Fin 1700000) (c : Fin D) :
    broadcastInDim ⟨2, ![1700000, D]⟩ ![0, 1] h2 (broadcastInDim ⟨2, ![1700000, 1]⟩ ![0] h1 nrm) (ix2 e c)
      = nrm (ix1 e) := by
  rw [broadcastInDim_apply ![0, 1] h2 _ (ix2 e c) (ix2 e (0 : Fin 1)) (fun a => by
    match a with
    | ⟨0, _⟩ => rfl
    | ⟨1, _⟩ => rfl)]
  exact broadcastInDim_apply ![0] h1 nrm (ix2 e (0 : Fin 1)) (ix1 e) (fun a => by
    match a with
    | ⟨0, _⟩ => rfl)

/-- the accumulating scatter of the programs is, at the ideal values, the exact one -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- a propagation step, unfolded -/
theorem hop_def {ι ν κ' : Type} (S : ν → Finset ι) (src : ι → ν) (w : ι → EReal) (h : ν → κ' → EReal) (n : ν) (k : κ') :
    hop S src w h n k = 0 + ∑ e ∈ S n, w e * h (src e) k := rfl

/-- a zero splat read at an index -/
theorem zeroSplat_apply {T : Shape} (hb : (⟨0, ![]⟩ : Shape).BroadcastsInDim T ![]) (i : T.Idx) :
    broadcastInDim T ![] hb (constant (F := Ideal) ⟨0, ![]⟩ .f32 0x00000000#32) i = (0 : EReal) :=
  Ideal.ofBits_zero_f32

/-- ONE HOP ON D CHANNELS READ AT (n, c): gather the source rows, scale by the edge weight, add into the
target rows of a zero matrix -/
theorem rowHop_apply {D : Nat}
    (wfS : ScatterDims.WF ⟨2, ![100000, D]⟩ ⟨2, ![1700000, 1]⟩ ⟨2, ![1700000, D]⟩ [1] [0] [0] 1)
    (wfG : GatherDims.WF ⟨2, ![100000, D]⟩ ⟨2, ![1700000, 1]⟩ ⟨2, ![1700000, D]⟩ [1] [0] [] [0] [] 1 ![1, D])
    (hZ : (⟨0, ![]⟩ : Shape).BroadcastsInDim ⟨2, ![100000, D]⟩ ![])
    (h1 : (⟨1, ![1700000]⟩ : Shape).BroadcastsInDim ⟨2, ![1700000, 1]⟩ ![0])
    (h2 : (⟨2, ![1700000, 1]⟩ : Shape).BroadcastsInDim ⟨2, ![1700000, D]⟩ ![0, 1])
    (nrm : FVec Ideal ⟨1, ![1700000]⟩ .f32) (src tgt : IVec ⟨2, ![1700000, 1]⟩ 32)
    (h : FVec Ideal ⟨2, ![100000, D]⟩ .f32) (n : Fin 100000) (c : Fin D) :
    Ideal.hostScatterAdd (Cert.RowOps.rowScatterDims 100000 1700000 D wfS)
        (broadcastInDim ⟨2, ![100000, D]⟩ ![] hZ (constant (F := Ideal) ⟨0, ![]⟩ .f32 0x00000000#32)) tgt
        (mulf (broadcastInDim ⟨2, ![1700000, D]⟩ ![0, 1] h2 (broadcastInDim ⟨2, ![1700000, 1]⟩ ![0] h1 nrm))
          (Host.gather (Cert.RowOps.rowGatherDims 100000 1700000 D wfG) h src)) (ix2 n c)
      = hop (tgtSet tgt) (srcRow src) (fun e => nrm (ix1 e)) (fun a c => h (ix2 a c)) n c := by
  rw [Cert.RowOps.rowScatterAdd_apply, hop_def, zeroSplat_apply]
  refine congrArg (fun t => (0 : EReal) + t) (Finset.sum_congr rfl (fun e _ => ?_))
  rw [mulf_apply, nrmBcast_apply, Cert.RowOps.rowGather_apply (by norm_num)]
  rfl

/-- the reference's hop, on 128 channels, read at (n, k), is the abstract propagation step -/
theorem hop128_apply (nrm : FVec Ideal ⟨1, ![1700000]⟩ .f32) (src tgt : IVec ⟨2, ![1700000, 1]⟩ 32)
    (h : FVec Ideal ⟨2, ![100000, 128]⟩ .f32) (n : Fin 100000) (k : Fin 128) :
    hop128 (F := Ideal) nrm src tgt h (ix2 n k)
      = hop (tgtSet tgt) (srcRow src) (fun e => nrm (ix1 e)) (fun a c => h (ix2 a c)) n k := by
  have wfS : ScatterDims.WF ⟨2, ![100000, 128]⟩ ⟨2, ![1700000, 1]⟩ ⟨2, ![1700000, 128]⟩ [1] [0] [0] 1 :=
    Cert.ReferenceIdeal.Facts₀.scatter_S100000x128_S1700000x1_S1700000x128_1_0_0_1_wf
  have wfG : GatherDims.WF ⟨2, ![100000, 128]⟩ ⟨2, ![1700000, 1]⟩ ⟨2, ![1700000, 128]⟩ [1] [0] [] [0] [] 1 ![1, 128] :=
    Cert.ReferenceIdeal.Facts₀.gather_S100000x128_S1700000x1_S1700000x128_1_0_n_n_0_1_1128_wf
  -- the printed scatter and gather are the row scatter and the row gather
  have eS : Cert.ReferenceIdeal.scatter_S100000x128_S1700000x1_S1700000x128_1_0_0_1
      = Cert.RowOps.rowScatterDims 100000 1700000 128 wfS := rfl
  have eG : Cert.ReferenceIdeal.gather_S100000x128_S1700000x1_S1700000x128_1_0_n_n_0_1_1128
      = Cert.RowOps.rowGatherDims 100000 1700000 128 wfG := rfl
  have e1 : hop128 (F := Ideal) nrm src tgt h = Ideal.hostScatterAdd _ _ _ _ := scatterAdd_ideal _ _ _ _
  rw [e1, eS, eG]
  exact rowHop_apply wfS wfG _ _ _ nrm src tgt h n k

/-- the kernel's hop, on the 16 projected channels, read at (n, j), is the same abstract step -/
theorem hop16_apply (nrm : FVec Ideal ⟨1, ![1700000]⟩ .f32) (src tgt : IVec ⟨2, ![1700000, 1]⟩ 32)
    (h : FVec Ideal ⟨2, ![100000, 16]⟩ .f32) (n : Fin 100000) (j : Fin 16) :
    hop16 (F := Ideal) nrm src tgt h (ix2 n j)
      = hop (tgtSet tgt) (srcRow src) (fun e => nrm (ix1 e)) (fun a c => h (ix2 a c)) n j := by
  have wfS : ScatterDims.WF ⟨2, ![100000, 16]⟩ ⟨2, ![1700000, 1]⟩ ⟨2, ![1700000, 16]⟩ [1] [0] [0] 1 :=
    Cert.KernelIdeal.Facts₀.scatter_S100000x16_S1700000x1_S1700000x16_1_0_0_1_wf
  have wfG : GatherDims.WF ⟨2, ![100000, 16]⟩ ⟨2, ![1700000, 1]⟩ ⟨2, ![1700000, 16]⟩ [1] [0] [] [0] [] 1 ![1, 16] :=
    Cert.KernelIdeal.Facts₀.gather_S100000x16_S1700000x1_S1700000x16_1_0_n_n_0_1_116_wf
  -- the printed scatter and gather are the row scatter and the row gather
  have eS : Cert.KernelIdeal.scatter_S100000x16_S1700000x1_S1700000x16_1_0_0_1
      = Cert.RowOps.rowScatterDims 100000 1700000 16 wfS := rfl
  have eG : Cert.KernelIdeal.gather_S100000x16_S1700000x1_S1700000x16_1_0_n_n_0_1_116
      = Cert.RowOps.rowGatherDims 100000 1700000 16 wfG := rfl
  have e1 : hop16 (F := Ideal) nrm src tgt h = Ideal.hostScatterAdd _ _ _ _ := scatterAdd_ideal _ _ _ _
  rw [e1, eS, eG]
  exact rowHop_apply wfS wfG _ _ _ nrm src tgt h n j

/-- the reference's projection read at (n, j): the product with the transposed weight matrix -/
theorem refProj_apply (h : FVec Ideal ⟨2, ![100000, 128]⟩ .f32) (a2 : FVec Ideal ⟨2, ![16, 128]⟩ .f32)
    (n : Fin 100000) (j : Fin 16) :
    refProj (F := Ideal) h a2 (ix2 n j) = ∑ k : Fin 128, h (ix2 n k) * a2 (ix2 j k) := by
  -- the printed contraction is the plain matrix product
  have eD : Cert.ReferenceIdeal.dot_S100000x128_S128x16_S100000x16_1_0_0_1_n_n = DotDims.plain 100000 128 16 := rfl
  have e1 : refProj (F := Ideal) h a2 = Host.dotGeneral (F := Ideal) _ none h _ := rfl
  rw [e1, eD, Cert.MatOps.dotGeneral_plain_apply]
  refine Finset.sum_congr rfl (fun k _ => ?_)
  rw [Cert.MatOps.transpose10_apply]

/-- the kernel's projection as one function: x @ W.T read at (n, j) -/
def projFn (a0 : (⟨2, ![100000, 128]⟩ : Shape).Idx → EReal) (a2 : (⟨2, ![16, 128]⟩ : Shape).Idx → EReal) :
    (⟨2, ![100000, 16]⟩ : Shape).Idx → EReal :=
  fun i => ∑ k : Fin 128, a0 (ix2 (⟨(i 0).val, idx2_lt0 i⟩ : Fin 100000) k) * a2 (ix2 (⟨(i 1).val, idx2_lt1 i⟩ : Fin 16) k)

/-- the projection read at (n, j) -/
theorem projFn_apply (a0 : (⟨2, ![100000, 128]⟩ : Shape).Idx → EReal) (a2 : (⟨2, ![16, 128]⟩ : Shape).Idx → EReal)
    (n : Fin 100000) (j : Fin 16) :
    projFn a0 a2 (ix2 n j) = ∑ k : Fin 128, a0 (ix2 n k) * a2 (ix2 j k) := rfl

/-- THE RESULT: the reference's "hop, hop, project" is the kernel's "project, hop, hop" -/
theorem proj_hops_comm (nrm : FVec Ideal ⟨1, ![1700000]⟩ .f32) (src tgt : IVec ⟨2, ![1700000, 1]⟩ 32)
    (a0 : FVec Ideal ⟨2, ![100000, 128]⟩ .f32) (a2 : FVec Ideal ⟨2, ![16, 128]⟩ .f32)
    (hn : ∀ e, ∃ r : ℝ, nrm e = (r : EReal)) (hx : ∀ i, ∃ r : ℝ, a0 i = (r : EReal))
    (hw : ∀ i, ∃ r : ℝ, a2 i = (r : EReal)) :
    refProj (F := Ideal) (hop128 (F := Ideal) nrm src tgt (hop128 (F := Ideal) nrm src tgt a0)) a2
      = hop16 (F := Ideal) nrm src tgt (hop16 (F := Ideal) nrm src tgt (projFn a0 a2)) := by
  -- the data as coercions of real-valued functions
  choose wR hwR using hn
  choose xR hxR using hx
  choose WR hWR using hw
  have ew : (fun e : Fin 1700000 => nrm (ix1 e)) = fun e => ((wR (ix1 e) : ℝ) : EReal) :=
    funext fun e => hwR (ix1 e)
  have ex : (fun (a : Fin 100000) (c : Fin 128) => a0 (ix2 a c)) = fun a c => ((xR (ix2 a c) : ℝ) : EReal) :=
    funext fun a => funext fun c => hxR (ix2 a c)
  funext i
  obtain ⟨n, j, rfl⟩ : ∃ (n : Fin 100000) (j : Fin 16), i = ix2 n j := ⟨i 0, i 1, eq_ix2 i⟩
  -- the left side: the contraction of two hops
  have eL : ∀ k : Fin 128, hop128 (F := Ideal) nrm src tgt (hop128 (F := Ideal) nrm src tgt a0) (ix2 n k) * a2 (ix2 j k)
      = hop (tgtSet tgt) (srcRow src) (fun e => ((wR (ix1 e) : ℝ) : EReal))
          (hop (tgtSet tgt) (srcRow src) (fun e => ((wR (ix1 e) : ℝ) : EReal))
            (fun a c => ((xR (ix2 a c) : ℝ) : EReal))) n k * ((WR (ix2 j k) : ℝ) : EReal) := by
    intro k
    have e1 : (fun (a : Fin 100000) (c : Fin 128) => hop128 (F := Ideal) nrm src tgt a0 (ix2 a c))
        = hop (tgtSet tgt) (srcRow src) (fun e => nrm (ix1 e)) (fun a c => a0 (ix2 a c)) :=
      funext fun a => funext fun c => hop128_apply nrm src tgt a0 a c
    rw [hop128_apply, e1, ew, ex, hWR]
  -- the right side: two hops of the contraction
  have eR : hop16 (F := Ideal) nrm src tgt (hop16 (F := Ideal) nrm src tgt (projFn a0 a2)) (ix2 n j)
      = hop (tgtSet tgt) (srcRow src) (fun e => ((wR (ix1 e) : ℝ) : EReal))
          (hop (tgtSet tgt) (srcRow src) (fun e => ((wR (ix1 e) : ℝ) : EReal))
            (fun a j' => ∑ k : Fin 128, ((xR (ix2 a k) : ℝ) : EReal) * ((WR (ix2 j' k) : ℝ) : EReal))) n j := by
    have e1 : (fun (a : Fin 100000) (c : Fin 16) => hop16 (F := Ideal) nrm src tgt (projFn a0 a2) (ix2 a c))
        = hop (tgtSet tgt) (srcRow src) (fun e => nrm (ix1 e)) (fun a c => projFn a0 a2 (ix2 a c)) :=
      funext fun a => funext fun c => hop16_apply nrm src tgt (projFn a0 a2) a c
    have e2 : (fun (a : Fin 100000) (c : Fin 16) => projFn a0 a2 (ix2 a c))
        = fun a j' => ∑ k : Fin 128, ((xR (ix2 a k) : ℝ) : EReal) * ((WR (ix2 j' k) : ℝ) : EReal) :=
      funext fun a => funext fun c => by
        rw [projFn_apply]
        exact Finset.sum_congr rfl (fun k _ => by rw [hxR, hWR])
    rw [hop16_apply, e1, e2, ew]
  rw [refProj_apply, Finset.sum_congr rfl (fun k _ => eL k), eR]
  -- the algebraic identity, with the matrix B k j = W (j, k)
  exact hop_hop_dot (tgtSet tgt) (srcRow src) (fun e => wR (ix1 e)) (fun a k => xR (ix2 a k))
    (fun k j => WR (ix2 j k)) n j

end Cert.Graph
-- ==== Proof.TailBridge.lean ====
/-
  The last layer of the two programs is one function at the ideal (extended-real) values.

  After the propagation both programs send a feature matrix `y : [100000, 16]` through the same tail: add the bias
  `a3 : [16]` to every row, clamp below at zero, contract with the transposed weights `a4 : [40, 16]`, add the bias
  `a5 : [40]` to every row:  `out[n, q] = (∑ₖ max(y[n, k] + a3[k], 0) · a4[q, k]) + a5[q]`.
  The reference spells it with whole-array operations: each bias is placed along axis 1 of a one-row array and that row is
  broadcast over the 100000 rows, the zero is a scalar broadcast, the product is the plain contraction of `[100000, 16]`
  with the `[16, 40]` transpose of the weights. The finishing layer `finG` takes the biases as one-row arrays made by a
  reshape `[16] → [1, 16]`, `[40] → [1, 40]`. Read at an index `(n, q)` both sides are the same sum over the 16 hidden
  channels: every layout operation reads one element of its operand, the row broadcast and the reshape both read the bias
  at the column coordinate, and the transpose at `(k, q)` reads the weights at `(q, k)`. Nothing here depends on the
  number of rows.
-/
import proofs.«102031_j84954453114998_1_alg».proof.Proof.GraphTerms
import proofs.«102031_j84954453114998_1_alg».proof.Proof.LibMatmul
import proofs.«102031_j84954453114998_1_alg».proof.Proof.Region1
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.ShloMosaic.ValueIdx

namespace Cert.Tail

section Rows
variable {α : Type}

/-- A `[b]` array placed along axis 1 of a `[1, b]` array reads, at `(u, k)`, the operand at `k`. -/
theorem bcastRow_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A `[1, b]` array broadcast over the rows of an `[a, b]` array reads, at `(p, k)`, the operand's one row at `k`. -/
theorem bcastRows_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Rows

open Cert.ReferenceIdeal Cert.ReferenceIdeal.Facts₀ in
/-- THE RESULT -/
theorem tail_eq (y : FVec Ideal ⟨2, ![100000, 16]⟩ .f32) (a3 : FVec Ideal ⟨1, ![16]⟩ .f32)
    (a4 : FVec Ideal ⟨2, ![40, 16]⟩ .f32) (a5 : FVec Ideal ⟨1, ![40]⟩ .f32) :
    Cert.KernelIdeal.Fin.finG y (shapeCast Cert.KernelIdeal.S1x16 a3 Cert.KernelIdeal.Facts₀.shapeCasts_S16_S1x16) a4
        (shapeCast Cert.KernelIdeal.S1x40 a5 Cert.KernelIdeal.Facts₀.shapeCasts_S40_S1x40)
      = Cert.Graph.refTail (F := Ideal) y a3 a4 a5 := by
  funext i
  obtain ⟨n, q, rfl⟩ : ∃ (n : Fin 100000) (q : Fin 40), i = ix2 n q := ⟨i 0, i 1, eq_ix2 i⟩
  rw [Cert.KernelIdeal.Fin.finG_ix2]
  unfold Cert.Graph.refTail
  have e : dot_S100000x16_S16x40_S100000x40_1_0_0_1_n_n = DotDims.plain 100000 16 40 := rfl
  rw [e]
  refine Eq.trans ?_ (addf_apply _ _ _).symm
  rw [Cert.MatOps.dotGeneral_plain_apply]
  congr 1
  · refine Finset.sum_congr rfl fun k _ => ?_
    rw [Cert.MatOps.transpose10_apply]
    congr 1
    refine Eq.trans ?_ (maximumf_apply _ _ _).symm
    congr 1
    refine Eq.trans ?_ (addf_apply _ _ _).symm
    congr 1
    rw [bcastRows_apply, bcastRow_apply]
    exact shapeCast_a_1a_apply a3 _ 0 k
  · rw [bcastRows_apply, bcastRow_apply]
    exact shapeCast_a_1a_apply a5 _ 0 q

end Cert.Tail
-- ==== Proof.FiniteInputs.lean ====
/-
  The certificate's precondition, read back: every entry of the first and of the third
  argument is a real number.

  The precondition is the conjunction, over five of the six arguments `a`, of
  "every entry of `|a|` is below `+∞`": the absolute value of each entry is compared
  (strictly below) with the constant whose pattern is the format's positive infinity, the
  comparisons are folded by `and` over all axes, starting from `true`, and the five
  results are joined by `and`. The claim that the result is `true` therefore gives, for
  each of these arguments and each index, `|a i| < ⊤` in the extended reals
  `[-∞, +∞]`, where `|x| = max x (-x)`. An extended real with `max x (-x) < ⊤` is neither
  `⊤` (then `max x (-x) = ⊤`) nor `⊥` (then `-x = ⊤`), so it is the coercion of a real.
-/
import proofs.«102031_j84954453114998_1_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic

/-- the scalar shape has one index -/
instance : Subsingleton Cert.Pre_finite_inputs.S_.Idx := ⟨fun a b => funext fun d => d.elim0⟩

/-- the single-precision pattern `0x7F800000` (sign 0, exponent all ones, fraction 0) is `+∞` -/
theorem ofBits_inf : Ideal.ofBits .f32 0x7F800000#32 = (⊤ : EReal) := by
  simp [Ideal.ofBits, Ideal.ieee]

/-- an extended real whose absolute value is below +inf is a real number -/
theorem real_of_abs_lt_top (x : EReal) (h : max x (-x) < ⊤) : ∃ r : ℝ, x = (r : EReal) := by
  induction x using EReal.rec with
  | bot => simp at h
  | coe r => exact ⟨r, rfl⟩
  | top => simp at h

/-- one entry of one conjunct: if the comparison `|a i| < +∞` answers `true`, the entry is real -/
theorem real_of_cmp {s : Shape} (hb : Cert.Pre_finite_inputs.S_.BroadcastsInDim s (![] : Fin 0 → Fin s.rank))
    (a : FVec Ideal s .f32) (i : s.Idx)
    (h : cmpf .olt (Host.absf a)
        (broadcastInDim s ![] hb (constant (F := Ideal) Cert.Pre_finite_inputs.S_ .f32 0x7F800000#32)) i = 1#1) :
    ∃ r : ℝ, a i = (r : EReal) := by
  have hx : max (a i) (-(a i)) < (⊤ : EReal) := by
    have e : cmpf .olt (Host.absf a)
        (broadcastInDim s ![] hb (constant (F := Ideal) Cert.Pre_finite_inputs.S_ .f32 0x7F800000#32)) i
        = BitVec.ofBool (decide (max (a i) (-(a i)) < Ideal.ofBits .f32 0x7F800000#32)) := rfl
    rw [e, ofBits_inf] at h
    by_contra hn
    rw [decide_eq_false hn] at h
    exact absurd h (by decide)
  exact real_of_abs_lt_top _ hx

variable [Cert.Pre_finite_inputs.Facts]

/-- the precondition gives: every entry of the first and of the third argument is real -/
theorem real_of_pre (a0 : FVec Ideal Cert.Pre_finite_inputs.S100000x128 .f32) (a1 : IVec Cert.Pre_finite_inputs.S2x1600000 32)
    (a2 : FVec Ideal Cert.Pre_finite_inputs.S16x128 .f32) (a3 : FVec Ideal Cert.Pre_finite_inputs.S16 .f32)
    (a4 : FVec Ideal Cert.Pre_finite_inputs.S40x16 .f32) (a5 : FVec Ideal Cert.Pre_finite_inputs.S40 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) := by
  have h0 := congrFun h ValueIdx.ix0
  dsimp only [Cert.Pre_finite_inputs.fn, Cert.Pre_finite_inputs.fn_part1, andi] at h0
  -- the five conjuncts, outermost `and` first
  obtain ⟨h1234, _⟩ := IntOp.andi_eq_one.1 h0
  obtain ⟨h123, _⟩ := IntOp.andi_eq_one.1 h1234
  obtain ⟨h12, _⟩ := IntOp.andi_eq_one.1 h123
  obtain ⟨h1, h2⟩ := IntOp.andi_eq_one.1 h12
  -- a fold by `and` over all axes that answers `true` met `true` at every index
  exact ⟨fun i => real_of_cmp _ a0 i (Host.reduce_andi_all _ _ _ _ ValueIdx.ix0 h1 i),
    fun i => real_of_cmp _ a2 i (Host.reduce_andi_all _ _ _ _ ValueIdx.ix0 h2 i)⟩

end Cert.FiniteInputs
-- ==== Proof.NormReal.lean ====
/-
  Every edge weight of the graph normalisation is a real number.

  At the ideal instance a float is an extended real and every operation is exact. Call an extended real *real*
  when it is the image of a real number. Reals are closed under addition, multiplication and finite sums, and the
  power of two reals is by definition a real (Mathlib's `Real.rpow`). The three literals the normalisation spells
  (`0`, `1` and `-1/2`) have a finite exponent field, so each denotes a real.

  Hence the degree of a node, zero plus a finite sum of ones, is real; the inverse square root of the degree is one
  of the two branches of a selection, the power of two reals or the literal zero, both real; a gathered element of
  that vector is one of its elements; and the edge weight, a product of three such reals, is real.
-/
import proofs.«102031_j84954453114998_1_alg».proof.Proof.GraphTerms
import Idealize.ShloMosaic.Lib.ValueIdx

open scoped BigOperators

noncomputable section

namespace Cert.Graph

open Idealize.ShloMosaic

/-- An extended real is *real* when it is the image of a real number. -/
def IsRe (x : EReal) : Prop := ∃ r : ℝ, x = (r : EReal)

theorem IsRe.zero : IsRe 0 := ⟨0, rfl⟩

theorem IsRe.add {x y : EReal} (hx : IsRe x) (hy : IsRe y) : IsRe (x + y) := by
  obtain ⟨a, rfl⟩ := hx
  obtain ⟨b, rfl⟩ := hy
  exact ⟨a + b, (EReal.coe_add a b).symm⟩

theorem IsRe.mul {x y : EReal} (hx : IsRe x) (hy : IsRe y) : IsRe (x * y) := by
  obtain ⟨a, rfl⟩ := hx
  obtain ⟨b, rfl⟩ := hy
  exact ⟨a * b, (EReal.coe_mul a b).symm⟩

/-- A finite sum of reals is real. -/
theorem IsRe.sum {ι : Type} (s : Finset ι) (f : ι → EReal) (h : ∀ i ∈ s, IsRe (f i)) :
    IsRe (∑ i ∈ s, f i) := by
  classical
  induction s using Finset.induction_on with
  | empty => simpa using IsRe.zero
  | insert a s ha ih =>
    rw [Finset.sum_insert ha]
    exact (h a (Finset.mem_insert_self a s)).add (ih fun i hi => h i (Finset.mem_insert_of_mem hi))

/-- The power of two reals is Mathlib's real power. -/
theorem IsRe.pow {x y : EReal} (hx : IsRe x) (hy : IsRe y) : IsRe (Ideal.pow x y) := by
  obtain ⟨a, rfl⟩ := hx
  obtain ⟨b, rfl⟩ := hy
  exact ⟨Real.rpow a b, rfl⟩

/-- A single-precision pattern whose exponent field is not all ones denotes a real. -/
theorem isRe_f32 (b : BitVec 32) (hb : (b.extractLsb' 23 8).toNat ≠ 2 ^ 8 - 1) :
    IsRe (Ideal.ofBits .f32 b) := by
  show IsRe (Ideal.ieee 8 23 b)
  unfold Ideal.ieee
  simp only []
  rw [if_neg hb]
  split
  · exact ⟨_, rfl⟩
  · exact ⟨_, rfl⟩

/-- The literal `0.0`. -/
theorem isRe_lit_zero : IsRe (Ideal.ofBits .f32 0x00000000#32) := isRe_f32 _ (by decide)

/-- The literal `1.0`. -/
theorem isRe_lit_one : IsRe (Ideal.ofBits .f32 0x3F800000#32) := isRe_f32 _ (by decide)

/-- The literal `-0.5`. -/
theorem isRe_lit_neg_half : IsRe (Ideal.ofBits .f32 0xBF000000#32) := isRe_f32 _ (by decide)

/-- The accumulating scatter of real updates into a real operand is real: each element is the operand's plus a
    finite sum of updates. -/
theorem scatterAdd_isRe {s si u : Shape} {w : Nat} {φ : FTy} (d : ScatterDims s si u) (x : FVec Ideal s φ)
    (idx : IVec si w) (upd : FVec Ideal u φ) (hx : ∀ i, IsRe (x i)) (hu : ∀ j, IsRe (upd j)) (i : s.Idx) :
    IsRe (Host.scatterAdd d x idx upd i) := by
  show IsRe (Ideal.hostScatterAdd d x idx upd i)
  unfold Ideal.hostScatterAdd
  exact IsRe.add (hx i) (IsRe.sum _ _ fun j _ => hu j)

/-- A literal broadcast to any shape has the literal at every index. -/
theorem bcast_const_isRe {s t : Shape} (dims : Fin s.rank → Fin t.rank) (h : s.BroadcastsInDim t dims)
    (b : BitVec FTy.f32.bits) (hb : IsRe (Ideal.ofBits .f32 b)) (i : t.Idx) :
    IsRe (broadcastInDim t dims h (constant (F := Ideal) s .f32 b) i) := hb

/-- A selection between two reals is real, whichever branch the condition takes. -/
theorem select_isRe {s : Shape} (c : IVec s 1) (a b : s.Idx → EReal) (i : s.Idx) (ha : IsRe (a i))
    (hb : IsRe (b i)) : IsRe (select c a b i) := by
  show IsRe (Scalar.select (c i) (a i) (b i))
  unfold Scalar.select
  split
  · exact ha
  · exact hb

/-- The pointwise power of two real elements is real. -/
theorem hostPowf_isRe {s : Shape} {φ : FTy} (x y : FVec Ideal s φ) (i : s.Idx) (hx : IsRe (x i))
    (hy : IsRe (y i)) : IsRe (Host.powf x y i) :=
  IsRe.pow hx hy

/-- A gathered element is an element of the operand. -/
theorem gather_isRe {s si t : Shape} {w : Nat} (d : GatherDims s si t) (x : s.Idx → EReal) (idx : IVec si w)
    (hx : ∀ i, IsRe (x i)) (j : t.Idx) : IsRe (Host.gather d x idx j) :=
  hx _

/-- The pointwise product of two real elements is real. -/
theorem mulf_isRe {s : Shape} {φ : FTy} (a b : FVec Ideal s φ) (i : s.Idx) (ha : IsRe (a i))
    (hb : IsRe (b i)) : IsRe (mulf a b i) :=
  IsRe.mul ha hb

section
open Cert.ReferenceIdeal Cert.ReferenceIdeal.Facts₀

/-- The degree of a node is zero plus a finite sum of ones. -/
theorem deg_isRe (a1 : IVec S2x1600000 32) (i : S100000.Idx) : IsRe (deg (F := Ideal) a1 i) := by
  unfold deg
  exact scatterAdd_isRe _ _ _ _ (fun i => bcast_const_isRe _ _ _ isRe_lit_zero i)
    (fun j => bcast_const_isRe _ _ _ isRe_lit_one j) i

/-- The inverse square root of the degree is either a power of two reals or the literal zero. -/
theorem dinv_isRe (a1 : IVec S2x1600000 32) (i : S100000.Idx) : IsRe (dinv (F := Ideal) a1 i) := by
  unfold dinv
  exact select_isRe _ _ _ i
    (hostPowf_isRe _ _ i (deg_isRe a1 i) (bcast_const_isRe _ _ _ isRe_lit_neg_half i))
    (bcast_const_isRe _ _ _ isRe_lit_zero i)

/-- The edge weight is a product of two gathered inverse square roots and the literal one. -/
theorem norm_isRe (a1 : IVec S2x1600000 32) (e : S1700000.Idx) : IsRe (norm (F := Ideal) a1 e) := by
  unfold norm
  exact mulf_isRe _ _ e
    (mulf_isRe _ _ e (gather_isRe _ _ _ (dinv_isRe a1) e) (bcast_const_isRe _ _ _ isRe_lit_one e))
    (gather_isRe _ _ _ (dinv_isRe a1) e)

end

/-- THE RESULT: every edge weight is a real number -/
theorem norm_real (a1 : IVec Cert.ReferenceIdeal.S2x1600000 32) (e : Cert.ReferenceIdeal.S1700000.Idx) :
    ∃ r : ℝ, norm (F := Ideal) a1 e = (r : EReal) :=
  norm_isRe a1 e

end Cert.Graph

end
-- ==== Proof.lean ====
/-
  The certificate of the two-hop graph convolution kernel against its jnp reference.

  The reference propagates the 128 input channels twice along the normalised graph (gather the source rows, scale each
  by its edge weight, scatter-add into the target rows), projects onto the 16 hidden channels with `W_conv`, and ends
  with bias, ReLU, the second linear layer and its bias. The kernel projects first (a blocked matrix product in its
  first region), propagates the 16 projected channels twice with host operations, and ends in its second region.
  A hop is linear in the features and acts on the node axis, the projection acts on the channel axis, so they commute —
  over the reals. On the extended reals distributivity fails at infinities, and this is where the precondition is
  used: every entry of `x` and of `W_conv` is a real number, and the edge weights are real numbers whatever the edge
  list is (a degree is a finite sum of ones; its inverse square root is taken only of a real). The tail is one function
  of the propagated features on both sides. The three frames are the generated ones; the idealization rewrote nothing.
-/
import proofs.«102031_j84954453114998_1_alg».proof.Defs
import proofs.«102031_j84954453114998_1_alg».proof.Proof.Gen.Kernel
import proofs.«102031_j84954453114998_1_alg».proof.Proof.Gen.Kernel.Skeleton
import proofs.«102031_j84954453114998_1_alg».proof.Proof.Gen.Kernel.Launch
import proofs.«102031_j84954453114998_1_alg».proof.Proof.Gen.Kernel.Points
import proofs.«102031_j84954453114998_1_alg».proof.Proof.Gen.Kernel.Frame
import proofs.«102031_j84954453114998_1_alg».proof.Proof.Gen.KernelIdeal
import proofs.«102031_j84954453114998_1_alg».proof.Proof.Gen.KernelIdeal.Skeleton
import proofs.«102031_j84954453114998_1_alg».proof.Proof.Gen.KernelIdeal.Launch
import proofs.«102031_j84954453114998_1_alg».proof.Proof.Gen.KernelIdeal.Points
import proofs.«102031_j84954453114998_1_alg».proof.Proof.Gen.KernelIdeal.Frame
import proofs.«102031_j84954453114998_1_alg».proof.Proof.Gen.ReferenceIdeal
import proofs.«102031_j84954453114998_1_alg».proof.Proof.RefRun
import proofs.«102031_j84954453114998_1_alg».proof.Proof.RefValue
import proofs.«102031_j84954453114998_1_alg».proof.Proof.KernelRun
import proofs.«102031_j84954453114998_1_alg».proof.Proof.KernelValue
import proofs.«102031_j84954453114998_1_alg».proof.Proof.HopBridge
import proofs.«102031_j84954453114998_1_alg».proof.Proof.TailBridge
import proofs.«102031_j84954453114998_1_alg».proof.Proof.FiniteInputs
import proofs.«102031_j84954453114998_1_alg».proof.Proof.NormReal
import proofs.«102031_j84954453114998_1_alg».proof.Proof.Gen.Pre_finite_inputs
import Idealize.ShloMosaic.Adequacy
import Idealize.ShloMosaic.Init

noncomputable section

namespace Cert.Proof

open Idealize.ShloMosaic Idealize.SL.Sem

/-! ## The two programs compute one function of real-valued inputs -/

/-- Project, hop, hop, finish (the kernel) is hop, hop, project, finish (the reference) when `x` and `W_conv` hold
    real numbers: the tail is one function (`tail_eq`), and two hops commute with the projection (`proj_hops_comm`,
    with the edge weights real by `norm_real`). -/
theorem out_eq (a0 : FVec Ideal Cert.KernelIdeal.S100000x128 .f32) (a1 : IVec Cert.KernelIdeal.S2x1600000 32)
    (a2 : FVec Ideal Cert.KernelIdeal.S16x128 .f32) (a3 : FVec Ideal Cert.KernelIdeal.S16 .f32)
    (a4 : FVec Ideal Cert.KernelIdeal.S40x16 .f32) (a5 : FVec Ideal Cert.KernelIdeal.S40 .f32)
    (hx : ∀ i, ∃ r : ℝ, a0 i = (r : EReal)) (hw : ∀ i, ∃ r : ℝ, a2 i = (r : EReal)) :
    Cert.KernelIdeal.Hand.kerOut a0 a1 a2 a3 a4 a5 = Cert.Graph.refOut (F := Ideal) a0 a1 a2 a3 a4 a5 := by
  unfold Cert.KernelIdeal.Hand.kerOut Cert.Graph.refOut
  rw [Cert.Tail.tail_eq]
  refine congrArg (fun y => Cert.Graph.refTail (F := Ideal) y a3 a4 a5) ?_
  exact (Cert.Graph.proj_hops_comm (Cert.Graph.norm (F := Ideal) a1) _ _ a0 a2 (Cert.Graph.norm_real a1) hx hw).symm

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end at `Graph.refOut` of the arguments: the kernel's by its segments' contents (`result_eq`) and
    `out_eq` under the precondition, the reference's by its run's term (`res_eq`) and the arguments' agreement. -/
theorem algebraic : Cert.algebraic_KernelIdeal_ReferenceIdeal := by
  intro m ρ m' ρ' hpre hagree
  refine ⟨fun c => Cert.Graph.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Hand.run_result (F := Ideal) m ρ)
    rw [Cert.KernelIdeal.Hand.result_eq]
    obtain ⟨hx, hw⟩ := Cert.FiniteInputs.real_of_pre _ _ _ _ _ _ (hpre c)
    exact out_eq _ _ _ _ _ _ hx hw
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
